-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S4096 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S512x4096 : Shape := ⟨2, ![512, 4096]⟩
abbrev S4096x256 : Shape := ⟨2, ![4096, 256]⟩
abbrev S1x256 : Shape := ⟨2, ![1, 256]⟩
abbrev S512x256 : Shape := ⟨2, ![512, 256]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S8192x4096, .f32⟩
  | .hbm, ⟨5, _⟩ => ⟨S4096x4096, .bf16⟩
  | .hbm, ⟨6, _⟩ => ⟨S1x4096, .f32⟩
  | .hbm, ⟨7, _⟩ => ⟨S1x4096, .f32⟩
  | .hbm, ⟨8, _⟩ => ⟨S8192x4096, .f32⟩
  | .hbm, ⟨9, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S4096x256, .bf16⟩
  | .local _ .vmem, ⟨3, _⟩ => ⟨S4096x256, .bf16⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S512x4096_S512 : S512x4096.Reduces [1] S512
  shapeCasts_S512_S512x1 : S512.ShapeCasts S512x1
  broadcasts_S512x1_S512x4096 : S512x1.Broadcasts S512x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S512x1_S512x256 : S512x1.Broadcasts S512x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S8192x4096_S4x2048x4096 : S8192x4096.ShapeCasts S4x2048x4096
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x4096.size a
  hwx0_1 : ∀ i : grid0.Coords, EltTy.bits .bf16 = 32 ∨ (Rect.block (s := S4096x4096) S4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x4096.size a
  hwx0_3 : ∀ i : grid0.Coords, EltTy.bits .f32 = 32 ∨ (Rect.block (s := S1x4096) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S8192x4096.size a
  hwx0_4 : ∀ i : grid0.Coords, EltTy.bits .f32 = 32 ∨ (Rect.block (s := S8192x4096) S512x256.size (cc0_transform_4 i) (hinb0_4 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S1x1x4096 : Shape := ⟨3, ![1, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .i1⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S8192x1, .f32⟩
  | .hbm, ⟨25, _⟩ => ⟨S1x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S4x2048x4096, .f32⟩
  | .hbm, ⟨31, _⟩ => ⟨S1x1x4096, .f32⟩
  | .hbm, ⟨32, _⟩ => ⟨S4x2048x4096, .f32⟩
  | .hbm, ⟨33, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  shapeCasts_S4x2048x4096_S8192x4096 : S4x2048x4096.ShapeCasts S8192x4096
  reducesTo_S8192x4096_S8192_d1 : S8192x4096.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S4x2048x4096 : S8192x4096.ShapeCasts S4x2048x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The mathematics of the quantized linear layer, free of any program.

  A token row `x` (4096 reals) is scaled by `s = max (max_k |x k|, ε) / 127`, each entry of `x / s` is rounded toward
  zero, the rounded row is multiplied into a weight column, and the product is rescaled by `s · w_max` and shifted by
  the bias:  `out = (∑ k, ⌊x k / s⌉₀ · W k c) · (s · w_max c) + bias c`.
  Every quantity is an extended real; the three constants (-∞, ε, 127) stay the binary words both programs print.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.QuantLinear

open Idealize.ShloMosaic Idealize.ShloMosaic.ValueIdx

/-- The largest magnitude of a row: the maximum, from -∞, of `max (x k) (-(x k))` over the row's 4096 entries. -/
def rowAbsMax (row : Fin 4096 → EReal) : EReal :=
  (Finset.univ : Finset (Fin 4096)).fold max (Ideal.ofBits .f32 0xFF800000#32) (fun k => max (row k) (-(row k)))

/-- The row's quantization step: its largest magnitude, floored at ε, over 127. -/
def scale (row : Fin 4096 → EReal) : EReal :=
  Ideal.div (max (rowAbsMax row) (Ideal.ofBits .f32 0x322BCC77#32)) (Ideal.ofBits .f32 0x42FE0000#32)

/-- Rounding toward zero: the ceiling below zero, the floor elsewhere. -/
def towardZero (y : EReal) : EReal :=
  Scalar.select (Ideal.cmp .olt y (Ideal.ofBits .f32 0x00000000#32)) (Ideal.liftRound Int.ceil y) (Ideal.liftRound Int.floor y)

/-- One output entry from its token row, its weight column, the column's weight scale and its bias. -/
def entry (row col : Fin 4096 → EReal) (wm b : EReal) : EReal :=
  (∑ k : Fin 4096, towardZero (Ideal.div (row k) (scale row)) * col k) * (scale row * wm) + b

/-- The whole result over the flattened tokens: entry `(r, c)` from row `r` of `X`, column `c` of `W`, and the
    `c`-th weight scale and bias. -/
def G2 (X : (⟨2, ![8192, 4096]⟩ : Shape).Idx → EReal) (W : (⟨2, ![4096, 4096]⟩ : Shape).Idx → EReal)
    (wm b : (⟨1, ![4096]⟩ : Shape).Idx → EReal) : (⟨2, ![8192, 4096]⟩ : Shape).Idx → EReal :=
  fun i => entry (fun k => X (ix2 (i 0) k)) (fun k => W (ix2 k (i 1))) (wm (ix1 (i 1))) (b (ix1 (i 1)))

theorem G2_apply (X : (⟨2, ![8192, 4096]⟩ : Shape).Idx → EReal) (W : (⟨2, ![4096, 4096]⟩ : Shape).Idx → EReal)
    (wm b : (⟨1, ![4096]⟩ : Shape).Idx → EReal) (r : Fin 8192) (c : Fin 4096) :
    G2 X W wm b (ix2 r c) = entry (fun k => X (ix2 r k)) (fun k => W (ix2 k c)) (wm (ix1 c)) (b (ix1 c)) := rfl

/-- A flattened `[8192, 4096]` array regrouped as `[4, 2048, 4096]` reads, at `(a, b, c)`, row `a · 2048 + b`,
    column `c`: the two indices sit at the same row-major position. -/
theorem unflatten_apply {α : Type} (x : (⟨2, ![8192, 4096]⟩ : Shape).Idx → α)
    (h : (⟨2, ![8192, 4096]⟩ : Shape).ShapeCasts ⟨3, ![4, 2048, 4096]⟩) (a : Fin 4) (b : Fin 2048) (c : Fin 4096) :
    shapeCast ⟨3, ![4, 2048, 4096]⟩ x h (ix3 a b c) = x (ix2 (⟨a.val * 2048 + b.val, by omega⟩ : Fin 8192) c) :=
  shapeCast_apply x h _ _ (by
    rw [Shape.rowMajor_val_two, Shape.rowMajor_val_three]
    show (a.val * 2048 + b.val) * 4096 + c.val = (a.val * 2048 + b.val) * 4096 + c.val
    rfl)

end Cert.QuantLinear

end
-- ==== Proof.LibColumns.lean ====
/-
  A column kept as a unit last axis, read at an index: the two layout steps of a `keepdims` reduction — a vector
  `[a]` cast to a column `[a, 1]`, and a column `[a, 1]` broadcast along its unit axis to `[a, b]`. General in the
  extents and in the element type; they complement the library's leading-unit-axis casts and its row broadcast.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate
    `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.KernelEntry.lean ====
/-
  One grid point's arithmetic, read entry by entry. From its block of 512 token rows the body computes each row's step
  (the row's largest magnitude, floored at ε, over 127), divides the row by its step and rounds toward zero, multiplies
  the rounded rows into the block of 256 weight columns, rescales by the row's step times the column's weight scale and
  adds the column's bias. Entry (p, q) of what it stores therefore depends on row p of the token block, column q of
  the weight block and entry q of the two rows of scales and biases, and is the specification's `entry` of those.
-/
import proofs.«138856_j27487790694928_1_alg».proof.Proof.Gen.KernelIdeal.Skeleton
import proofs.«138856_j27487790694928_1_alg».proof.Proof.Spec
import proofs.«138856_j27487790694928_1_alg».proof.Proof.LibColumns
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.QuantLinear

/-! ## A row's largest magnitude -/

/-- The index the reduction over the second axis inserts: row `p`, position `k`. -/
theorem lift_row (h : S512x4096.Reduces [1] S512) (p : Fin 512) (k : Fin 4096) : h.lift (ix1 p) k = ix2 p k :=
  funext fun a => Fin.ext (by match a with | ⟨0, _⟩ => rfl | ⟨1, _⟩ => rfl)

/-- The lane maximum of the magnitudes, at row `p`, is that row's largest magnitude. -/
theorem rowMax_apply (x : FVec Ideal S512x4096 .f32) (h : S512x4096.Reduces [1] S512) (hφ : FKind.Formats .f32)
    (hacc : (0xFF800000#32 : BitVec 32) = 0xFF800000#32) (p : Fin 512) :
    multiReduction .maximumf [1] S512 (absf x) 0xFF800000#32 h hφ hacc (ix1 p) = rowAbsMax (fun k => x (ix2 p k)) := by
  refine (Ideal.multiReduction_maximumf_single (absf x) 0xFF800000#32 h hφ hacc (ix1 p)).trans ?_
  show (Finset.univ : Finset (Fin 4096)).fold max (Ideal.ofBits .f32 0xFF800000#32) (fun k : Fin 4096 => absf x (h.lift (ix1 p) k))
    = (Finset.univ : Finset (Fin 4096)).fold max (Ideal.ofBits .f32 0xFF800000#32) (fun k : Fin 4096 => max (x (ix2 p k)) (-(x (ix2 p k))))
  refine congrArg (fun f : Fin 4096 → EReal => (Finset.univ : Finset (Fin 4096)).fold max (Ideal.ofBits .f32 0xFF800000#32) f)
    (funext fun (k : Fin 4096) => ?_)
  show FloatOps.absf (x (h.lift (ix1 p) k)) = max (x (ix2 p k)) (-(x (ix2 p k)))
  rw [lift_row h p k]
  rfl

/-! ## The column of steps and the rounded block -/

/-- A scalar constant of the body is the extended real its word encodes. -/
theorem scalar_ofBits (b : BitVec 32) : Scalar.ofBits (F := Ideal) .f32 b = Ideal.ofBits .f32 b := rfl

/-- A ceiling and a floor read at an index round the element. -/
theorem ceil_apply {s : Shape} (a : FVec Ideal s .f32) (i : s.Idx) : ceil a i = Ideal.liftRound Int.ceil (a i) := rfl
theorem floor_apply {s : Shape} (a : FVec Ideal s .f32) (i : s.Idx) : floor a i = Ideal.liftRound Int.floor (a i) := rfl

/-- The column of row steps the body computes from its token block. -/
def stepCol (x0 : FVec Ideal S512x4096 .f32) : FVec Ideal S512x1 .f32 :=
  divf (maximumf (shapeCast S512x1 (multiReduction .maximumf [1] S512 (absf (shapeCast S512x4096 x0 shapeCasts_S512x4096_S512x4096)) 0xFF800000#32 reduces_S512x4096_S512 (.inl rfl) rfl) shapeCasts_S512_S512x1)
      (broadcast S512x1 (Scalar.ofBits .f32 0x322BCC77#32)))
    (broadcast S512x1 (Scalar.ofBits .f32 0x42FE0000#32))

theorem stepCol_apply (x0 : FVec Ideal S512x4096 .f32) (p : Fin 512) (u : Fin 1) :
    stepCol x0 (ix2 p u) = scale (fun k => x0 (ix2 p k)) := by
  unfold stepCol scale
  rw [divf_apply, maximumf_apply, broadcast_apply, broadcast_apply, shapeCast_self, shapeCast_a_a1_apply, rowMax_apply,
    scalar_ofBits, scalar_ofBits]

/-- The token block over its steps, rounded toward zero. -/
def roundedBlock (x0 : FVec Ideal S512x4096 .f32) : FVec Ideal S512x4096 .f32 :=
  select (cmpf .olt (divf (shapeCast S512x4096 x0 shapeCasts_S512x4096_S512x4096) (broadcastTo S512x4096 (stepCol x0) broadcasts_S512x1_S512x4096))
      (broadcast S512x4096 (Scalar.ofBits .f32 0x00000000#32)))
    (ceil (divf (shapeCast S512x4096 x0 shapeCasts_S512x4096_S512x4096) (broadcastTo S512x4096 (stepCol x0) broadcasts_S512x1_S512x4096)))
    (floor (divf (shapeCast S512x4096 x0 shapeCasts_S512x4096_S512x4096) (broadcastTo S512x4096 (stepCol x0) broadcasts_S512x1_S512x4096)))

theorem roundedBlock_apply (x0 : FVec Ideal S512x4096 .f32) (p : Fin 512) (k : Fin 4096) :
    roundedBlock x0 (ix2 p k) = towardZero (Ideal.div (x0 (ix2 p k)) (scale (fun k => x0 (ix2 p k)))) := by
  have e : broadcastTo S512x4096 (stepCol x0) broadcasts_S512x1_S512x4096 (ix2 p k) = scale (fun k => x0 (ix2 p k)) := by
    rw [broadcastTo_a1_ab_apply, stepCol_apply]
  unfold roundedBlock towardZero
  rw [select_apply, cmpf_apply, ceil_apply, floor_apply, divf_apply, broadcast_apply, shapeCast_self, e, scalar_ofBits]
  rfl

/-! ## The block product -/

abbrev D := dot_S512x4096_S4096x256_S512x256_1_0_0_1_n_n

theorem lhs_0 (j : S512x256.Idx) (k : D.contr.Idx) : (D.lhsIdx j k 0 : ℕ) = j 0 := by
  simp [DotDims.lhsIdx, D, dot_S512x4096_S4096x256_S512x256_1_0_0_1_n_n]; rfl
theorem lhs_1 (j : S512x256.Idx) (k : D.contr.Idx) : (D.lhsIdx j k 1 : ℕ) = k ⟨0, by decide⟩ := by
  simp [DotDims.lhsIdx, D, dot_S512x4096_S4096x256_S512x256_1_0_0_1_n_n]; rfl
theorem rhs_0 (j : S512x256.Idx) (k : D.contr.Idx) : (D.rhsIdx j k 0 : ℕ) = k ⟨0, by decide⟩ := by
  simp [DotDims.rhsIdx, D, dot_S512x4096_S4096x256_S512x256_1_0_0_1_n_n]; rfl
theorem rhs_1 (j : S512x256.Idx) (k : D.contr.Idx) : (D.rhsIdx j k 1 : ℕ) = j 1 := by
  simp [DotDims.rhsIdx, D, dot_S512x4096_S4096x256_S512x256_1_0_0_1_n_n]; rfl

/-- The block product into the zero accumulator, at (p, q): row `p` of the left block against column `q` of the right. -/
theorem product_apply (L : FVec Ideal S512x4096 .bf16) (R : FVec Ideal S4096x256 .bf16) (p : Fin 512) (q : Fin 256) :
    matmul D none L R (constant S512x256 .f32 0x00000000#32) (ix2 p q) = ∑ k : Fin 4096, L (ix2 p k) * R (ix2 k q) := by
  refine (Ideal.matmul_constant_zero_apply D none L R (ix2 p q)).trans ?_
  rw [← Equiv.sum_comp (contrEquiv1 D 4096 (by decide) (by decide)).symm]
  refine Finset.sum_congr rfl fun k _ => ?_
  have hl : D.lhsIdx (ix2 p q) ((contrEquiv1 D 4096 (by decide) (by decide)).symm k) = ix2 p k :=
    funext fun a => Fin.ext (by
      match a with
      | ⟨0, _⟩ => exact lhs_0 _ _
      | ⟨1, _⟩ => exact (lhs_1 _ _).trans (contrEquiv1_symm_val D 4096 _ _ k))
  have hr : D.rhsIdx (ix2 p q) ((contrEquiv1 D 4096 (by decide) (by decide)).symm k) = ix2 k q :=
    funext fun a => Fin.ext (by
      match a with
      | ⟨0, _⟩ => exact (rhs_0 _ _).trans (contrEquiv1_symm_val D 4096 _ _ k)
      | ⟨1, _⟩ => exact rhs_1 _ _)
  rw [hl, hr]

/-! ## What the body stores -/

/-- The stored value is this tree of the loaded blocks. -/
theorem pay_eq (x0 : FVec Ideal S512x4096 .f32) (x1 : FVec Ideal S4096x256 .bf16) (x2 x3 : FVec Ideal S1x256 .f32) :
    k0_pay1 (F := Ideal) x0 x1 x2 x3 =
      addf (mulf (matmul D none (truncf .bf16 (roundedBlock x0) bitsLt_bf16_f32) (shapeCast S4096x256 x1 shapeCasts_S4096x256_S4096x256 : FVec Ideal S4096x256 .bf16) (constant S512x256 .f32 0x00000000#32))
          (mulf (broadcastTo S512x256 (stepCol x0) broadcasts_S512x1_S512x256)
            (broadcastTo S512x256 (shapeCast S1x256 x2 shapeCasts_S1x256_S1x256 : FVec Ideal S1x256 .f32) broadcasts_S1x256_S512x256)))
        (broadcastTo S512x256 (shapeCast S1x256 x3 shapeCasts_S1x256_S1x256 : FVec Ideal S1x256 .f32) broadcasts_S1x256_S512x256) := rfl

/-- Entry (p, q) of what the body stores. -/
theorem pay_apply (x0 : FVec Ideal S512x4096 .f32) (x1 : FVec Ideal S4096x256 .bf16) (x2 x3 : FVec Ideal S1x256 .f32)
    (p : Fin 512) (q : Fin 256) :
    k0_pay1 (F := Ideal) x0 x1 x2 x3 (ix2 p q)
      = entry (fun k => x0 (ix2 p k)) (fun k => x1 (ix2 k q)) (x2 (ix2 (0 : Fin 1) q)) (x3 (ix2 (0 : Fin 1) q)) := by
  rw [pay_eq, addf_apply, mulf_apply, mulf_apply]
  simp only [shapeCast_self]
  rw [product_apply, broadcastTo_a1_ab_apply, stepCol_apply, broadcastTo_1b_ab_apply, broadcastTo_1b_ab_apply]
  unfold entry
  refine congrArg (fun s => s * (scale (fun k => x0 (ix2 p k)) * x2 (ix2 (0 : Fin 1) q)) + x3 (ix2 (0 : Fin 1) q)) ?_
  refine Finset.sum_congr rfl fun k _ => ?_
  show roundedBlock x0 (ix2 p k) * x1 (ix2 k q) = _
  rw [roundedBlock_apply]

end Cert.KernelIdeal.Body

end
-- ==== Proof.KernelValue.lean ====
/-
  The kernel's result array. The grid is 16 × 16: point (i, j) reads token rows 512 i … 512 i + 511 in full, weight
  columns 256 j … 256 j + 255 in full and the matching 256 entries of the two rows of scales and biases, and writes the
  512 × 256 block at (i, j) of the flattened result. Each written block is the restriction of ONE function of the four
  arrays as the region finds them, the blocks tile the result, so the result array ends as that function; the host
  lines before the region flatten the tokens, narrow the weights (the identity on extended reals) and lay the two
  vectors out as rows, and the one line after it regroups the tokens.
-/
import proofs.«138856_j27487790694928_1_alg».proof.Proof.Gen.KernelIdeal.Frame
import proofs.«138856_j27487790694928_1_alg».proof.Proof.KernelEntry
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Cert.QuantLinear
open Idealize.ShloMosaic.Pipeline (Dat)

variable (m : (ℓ : Loc nD τ sig) → Buf (Elt Ideal) ℓ) (ρ : Dev nD → PrngReg)

theorem off_zero : (![0, 0] : Fin 2 → Nat) = fun _ => 0 := funext fun a => by fin_cases a <;> rfl

/-- The flattened result as one function of the flattened tokens, the weights and the two rows: entry (r, c) from row
    `r` of the tokens, column `c` of the weights and entry `c` of each row. -/
def blockFn (X : S8192x4096.Idx → EReal) (W : S4096x4096.Idx → EReal) (w2 b2 : S1x4096.Idx → EReal) : S8192x4096.Idx → EReal :=
  fun i => entry (fun k => X (ix2 (i 0) k)) (fun k => W (ix2 k (i 1))) (w2 (ix2 (0 : Fin 1) (i 1))) (b2 (ix2 (0 : Fin 1) (i 1)))

/-- The printed index maps over the 256 points: the token window follows the output's row block and stays at column
    block 0, the other three stay at row block 0 and follow the output's column block. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = win0_4.index t (1 : Fin 2)
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2) :=
  (by decide +kernel : ∀ t : Fin grid0.N, _)

/-- Every one of the 16 × 16 output blocks is some point's. -/
theorem idx_onto : ∀ (q0 : Fin 16) (q1 : Fin 16), ∃ t : Fin cfg0.N, win0_4.index t = ![q0.val, q1.val] :=
  (by decide +kernel : ∀ (q0 : Fin 16) (q1 : Fin 16), ∃ t : Fin grid0.N, win0_4.index t = ![q0.val, q1.val])

/-- What point `t` writes back is block `t` of `blockFn` of the four arrays as the region finds them. -/
theorem flushed_eq (c : Dev nD) (t : Fin cfg0.N) :
    (dats m 0 c).flushed 4 t
      = ((cfg0.win 4).blk t).view.read (Elt Ideal) (blockFn (V m c main_v0) (V m c main_v1) (V m c main_v2) (V m c main_v3)) := by
  show (cfg0.win 4).cut (grid0.coords t) ((dats m 0 c).after 4 t) = _
  rw [after0_4]
  unfold out0_4
  rw [View.canon_unit_zero off_zero]
  simp only [View.ld_unit_zero (S := S512x4096) off_zero, View.ld_unit_zero (S := S4096x256) off_zero,
    View.ld_unit_zero (S := S1x256) off_zero]
  obtain ⟨e0, e1, e2, e3, e4, e5, e6, e7⟩ := idx_facts t
  refine funext fun (j : S512x256.Idx) => ?_
  obtain ⟨p, q, rfl⟩ : ∃ (p : Fin 512) (q : Fin 256), j = ix2 p q := ⟨j 0, j 1, eq_ix2 j⟩
  refine (Cert.KernelIdeal.Body.pay_apply _ _ _ _ p q).trans ?_
  have h0 : ∀ k : Fin 4096, ((cfg0.win 0).blk t).view.emb (ix2 p k) = ix2 ((((cfg0.win 4).blk t).view.emb (ix2 p q)) 0) k := fun k => by
    funext a; apply Fin.ext
    match a with
    | ⟨0, _⟩ => show win0_0.index t (0 : Fin 2) * 512 + 1 * p.val = win0_4.index t (0 : Fin 2) * 512 + 1 * p.val; omega
    | ⟨1, _⟩ => show win0_0.index t (1 : Fin 2) * 4096 + 1 * k.val = k.val; omega
  have h1 : ∀ k : Fin 4096, ((cfg0.win 1).blk t).view.emb (ix2 k q) = ix2 k ((((cfg0.win 4).blk t).view.emb (ix2 p q)) 1) := fun k => by
    funext a; apply Fin.ext
    match a with
    | ⟨0, _⟩ => show win0_1.index t (0 : Fin 2) * 4096 + 1 * k.val = k.val; omega
    | ⟨1, _⟩ => show win0_1.index t (1 : Fin 2) * 256 + 1 * q.val = win0_4.index t (1 : Fin 2) * 256 + 1 * q.val; omega
  have h2 : ((cfg0.win 2).blk t).view.emb (ix2 (0 : Fin 1) q) = ix2 (0 : Fin 1) ((((cfg0.win 4).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 256 + 1 * q.val = win0_4.index t (1 : Fin 2) * 256 + 1 * q.val; omega
  have h3 : ((cfg0.win 3).blk t).view.emb (ix2 (0 : Fin 1) q) = ix2 (0 : Fin 1) ((((cfg0.win 4).blk t).view.emb (ix2 p q)) 1) := by
    funext a; apply Fin.ext
    match a with
    | ⟨0, _⟩ => show win0_3.index t (0 : Fin 2) * 1 + 1 * 0 = 0; omega
    | ⟨1, _⟩ => show win0_3.index t (1 : Fin 2) * 256 + 1 * q.val = win0_4.index t (1 : Fin 2) * 256 + 1 * q.val; omega
  show entry (fun k => V m c main_v0 (((cfg0.win 0).blk t).view.emb (ix2 p k)))
      (fun k => V m c main_v1 (((cfg0.win 1).blk t).view.emb (ix2 k q)))
      (V m c main_v2 (((cfg0.win 2).blk t).view.emb (ix2 (0 : Fin 1) q)))
      (V m c main_v3 (((cfg0.win 3).blk t).view.emb (ix2 (0 : Fin 1) q)))
    = blockFn (V m c main_v0) (V m c main_v1) (V m c main_v2) (V m c main_v3) (((cfg0.win 4).blk t).view.emb (ix2 p q))
  simp only [h0, h1, h2, h3]
  rfl

/-- An index of the result is in point `t`'s block iff each coordinate is in the block's range on its axis. -/
theorem mem_blk (t : Fin cfg0.N) (i : S8192x4096.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v4).slice (win0_4.rect t)).set ↔ _
  rw [View.set_slice_whole, Rect.mem_set_unit]
  exact Iff.rfl

/-- Every index of the result is in the block of the point at row block `r / 512`, column block `c / 256`. -/
theorem cover (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := idx_onto ⟨(i 0).val / 512, by omega⟩ ⟨(i 1).val / 256, by omega⟩
  have q0 : win0_4.index t (0 : Fin 2) = (i 0).val / 512 := congrFun ht 0
  have q1 : win0_4.index t (1 : Fin 2) = (i 1).val / 256 := congrFun ht 1
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 256 ≤ (i 1).val ∧ (i 1).val < win0_4.index t (1 : Fin 2) * 256 + 256; omega

/-- The result array after the region. -/
theorem final (c : Dev nD) :
    (dats m 0 c).arrAt 4 cfg0.N = blockFn (V m c main_v0) (V m c main_v1) (V m c main_v2) (V m c main_v3) :=
  (dats m 0 c).arrAt_eq_of_cover 4 _ (fun t _ => flushed_eq m c t) cover

/-! ## The host lines around the region -/

/-- The region finds the tokens flattened, -/
theorem V_v0 (c : Dev nD) :
    (V m c main_v0 : S8192x4096.Idx → EReal)
      = shapeCast S8192x4096 (m ((c.tc : Thread nD τ).loc main_arg0)) shapeCasts_S4x2048x4096_S8192x4096 := by
  show StableHlo.after hostOps0 (fun b => m (c, b)) (Proc.devRef .tc main_v0) = _
  after_results
  rfl
/-- the weights narrowed (the identity on extended reals), -/
theorem V_v1 (c : Dev nD) :
    @Eq (FVec Ideal S4096x4096 .bf16) (V m c main_v1)
      (truncf .bf16 (m ((c.tc : Thread nD τ).loc main_arg1) : FVec Ideal S4096x4096 .f32) bitsLt_bf16_f32) := by
  show StableHlo.after hostOps0 (fun b => m (c, b)) (Proc.devRef .tc main_v1) = _
  after_results
/-- and the weight scales and the biases each laid out as one row. -/
theorem V_v2 (c : Dev nD) :
    (V m c main_v2 : S1x4096.Idx → EReal) = shapeCast S1x4096 (m ((c.tc : Thread nD τ).loc main_arg2)) shapeCasts_S4096_S1x4096 := by
  show StableHlo.after hostOps0 (fun b => m (c, b)) (Proc.devRef .tc main_v2) = _
  after_results
  rfl
theorem V_v3 (c : Dev nD) :
    (V m c main_v3 : S1x4096.Idx → EReal) = shapeCast S1x4096 (m ((c.tc : Thread nD τ).loc main_arg3)) shapeCasts_S4096_S1x4096 := by
  show StableHlo.after hostOps0 (fun b => m (c, b)) (Proc.devRef .tc main_v3) = _
  after_results
  rfl

/-- The line after the region regroups the result array's tokens. -/
theorem tail_v5 (c : Dev nD) :
    (Pipeline.afterTail₀ cfgs (dats m) 0 (V0 m) [hostOps1] c main_v5 : S4x2048x4096.Idx → EReal)
      = shapeCast S4x2048x4096 ((dats m 0 c).arrAt 4 cfg0.N) shapeCasts_S8192x4096_S4x2048x4096 := by
  unfold Pipeline.afterTail₀
  show StableHlo.after hostOps1 _ (Proc.devRef .tc main_v5) = _
  after_results
  exact congrArg (fun A : S8192x4096.Idx → EReal => shapeCast S4x2048x4096 A shapeCasts_S8192x4096_S4x2048x4096)
    (Pipeline.withArrays_arr spec0 launch0.win.arr_inj c _ _ 4)

/-- The kernel program's result as one term of its four arguments. -/
def out (a0 : FVec Ideal S4x2048x4096 .f32) (a1 : FVec Ideal S4096x4096 .f32) (a2 a3 : FVec Ideal S4096 .f32) :
    FVec Ideal S4x2048x4096 .f32 :=
  shapeCast S4x2048x4096
    (blockFn (shapeCast S8192x4096 a0 shapeCasts_S4x2048x4096_S8192x4096) (truncf .bf16 a1 bitsLt_bf16_f32)
      (shapeCast S1x4096 a2 shapeCasts_S4096_S1x4096) (shapeCast S1x4096 a3 shapeCasts_S4096_S1x4096))
    shapeCasts_S8192x4096_S4x2048x4096

theorem result_eq (c : Dev nD) :
    (Pipeline.afterTail₀ cfgs (dats m) 0 (V0 m) [hostOps1] c main_v5 : S4x2048x4096.Idx → EReal)
      = out (m ((c.tc : Thread nD τ).loc main_arg0)) (m ((c.tc : Thread nD τ).loc main_arg1))
          (m ((c.tc : Thread nD τ).loc main_arg2)) (m ((c.tc : Thread nD τ).loc main_arg3)) := by
  rw [tail_v5, final, V_v0, V_v1, V_v2, V_v3]
  rfl

/-- Every weakly fair execution of the kernel program terminates with the result at `out` of the arguments' launch
    contents and the arguments unchanged. -/
theorem run : θ_run defs (onTc (τ := τ) (main (F := Ideal))) ⟨m, fun _ => 0, ρ⟩ fun r => ∀ c : Dev nD,
      r.2.mem ((c.tc : Thread nD τ).loc main_v5) = out (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.RefRun.lean ====
/-
  The reference read back as a straight line. Its program flattens the tokens to [8192, 4096], takes each row's
  largest magnitude, floors it at ε and divides by 127 to get the row's step, divides the row by its step, rounds toward
  zero (the outlined rounding function is listed here at its call site: a zero splat, a comparison, a ceiling, a floor
  and the select between them), multiplies the rounded rows into the weights, rescales by the product of the row's step
  and the column's weight scale, regroups the tokens to [4, 2048, 4096] and adds the bias along the last axis.
  Every weakly fair execution terminates with the result buffer at that composed term of the argument arrays, and the
  arguments unchanged.
-/
import proofs.«138856_j27487790694928_1_alg».proof.Proof.Gen.ReferenceIdeal
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the rounding function's six in the place of its call. -/
abbrev ops : List (HloOp τ sig (Elt F)) :=
  [ reshape main_arg0 main_v0 rfl shapeCasts_S4x2048x4096_S8192x4096,
    unary main_v0 main_v1 (Host.absf : (⟨S8192x4096, .f32⟩ : BufTy).Contents (Elt F) → (⟨S8192x4096, .f32⟩ : BufTy).Contents (Elt F)),
    nullary main_cst (constant S_ .f32 0xFF800000#32),
    binary main_v1 main_cst main_v2 ((fun x v => Host.reduce FloatOps.maximumf x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    nullary main_cst_0 (constant S_ .f32 0x322BCC77#32),
    unary main_cst_0 main_v3 (broadcastInDim S8192 ![] bcast_S_S8192 : (⟨S_, .f32⟩ : BufTy).Contents (Elt F) → (⟨S8192, .f32⟩ : BufTy).Contents (Elt F)),
    binary main_v2 main_v3 main_v4 (maximumf : (⟨S8192, .f32⟩ : BufTy).Contents (Elt F) → (⟨S8192, .f32⟩ : BufTy).Contents (Elt F) → (⟨S8192, .f32⟩ : BufTy).Contents (Elt F)),
    nullary main_cst_1 (constant S_ .f32 0x42FE0000#32),
    unary main_cst_1 main_v5 (broadcastInDim S8192 ![] bcast_S_S8192 : (⟨S_, .f32⟩ : BufTy).Contents (Elt F) → (⟨S8192, .f32⟩ : BufTy).Contents (Elt F)),
    binary main_v4 main_v5 main_v6 (Host.divf : (⟨S8192, .f32⟩ : BufTy).Contents (Elt F) → (⟨S8192, .f32⟩ : BufTy).Contents (Elt F) → (⟨S8192, .f32⟩ : BufTy).Contents (Elt F)),
    unary main_v6 main_v7 (broadcastInDim S8192x1 ![0] bcast_S8192_S8192x1_0 : (⟨S8192, .f32⟩ : BufTy).Contents (Elt F) → (⟨S8192x1, .f32⟩ : BufTy).Contents (Elt F)),
    unary main_v7 main_v8 (broadcastInDim S8192x4096 ![0, 1] bcast_S8192x1_S8192x4096_0_1 : (⟨S8192x1, .f32⟩ : BufTy).Contents (Elt F) → (⟨S8192x4096, .f32⟩ : BufTy).Contents (Elt F)),
    binary main_v0 main_v8 main_v9 (Host.divf : (⟨S8192x4096, .f32⟩ : BufTy).Contents (Elt F) → (⟨S8192x4096, .f32⟩ : BufTy).Contents (Elt F) → (⟨S8192x4096, .f32⟩ : BufTy).Contents (Elt F)),
    TRef.nullary main_call0.cst (constant S_ .f32 0x00000000#32),
    TRef.unary main_call0.cst main_call0.v0 (broadcastInDim S8192x4096 ![] bcast_S_S8192x4096),
    TRef.binary (.of main_v9) main_call0.v0 main_call0.v1 (cmpf .olt),
    TRef.unary (.of main_v9) main_call0.v2 Host.ceil,
    TRef.unary (.of main_v9) main_call0.v3 Host.floor,
    TRef.ternary main_call0.v1 main_call0.v2 main_call0.v3 main_call0.call0.v0 select,
    binary main_v10 main_arg1 main_v11 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    unary main_v6 main_v12 (broadcastInDim S8192x1 ![0] bcast_S8192_S8192x1_0 : (⟨S8192, .f32⟩ : BufTy).Contents (Elt F) → (⟨S8192x1, .f32⟩ : BufTy).Contents (Elt F)),
    unary main_arg2 main_v13 (broadcastInDim S1x4096 ![1] bcast_S4096_S1x4096_1 : (⟨S4096, .f32⟩ : BufTy).Contents (Elt F) → (⟨S1x4096, .f32⟩ : BufTy).Contents (Elt F)),
    unary main_v12 main_v14 (broadcastInDim S8192x4096 ![0, 1] bcast_S8192x1_S8192x4096_0_1 : (⟨S8192x1, .f32⟩ : BufTy).Contents (Elt F) → (⟨S8192x4096, .f32⟩ : BufTy).Contents (Elt F)),
    unary main_v13 main_v15 (broadcastInDim S8192x4096 ![0, 1] bcast_S1x4096_S8192x4096_0_1 : (⟨S1x4096, .f32⟩ : BufTy).Contents (Elt F) → (⟨S8192x4096, .f32⟩ : BufTy).Contents (Elt F)),
    binary main_v14 main_v15 main_v16 (mulf : (⟨S8192x4096, .f32⟩ : BufTy).Contents (Elt F) → (⟨S8192x4096, .f32⟩ : BufTy).Contents (Elt F) → (⟨S8192x4096, .f32⟩ : BufTy).Contents (Elt F)),
    binary main_v11 main_v16 main_v17 (mulf : (⟨S8192x4096, .f32⟩ : BufTy).Contents (Elt F) → (⟨S8192x4096, .f32⟩ : BufTy).Contents (Elt F) → (⟨S8192x4096, .f32⟩ : BufTy).Contents (Elt F)),
    reshape main_v17 main_v18 rfl shapeCasts_S8192x4096_S4x2048x4096,
    unary main_arg3 main_v19 (broadcastInDim S1x1x4096 ![2] bcast_S4096_S1x1x4096_2 : (⟨S4096, .f32⟩ : BufTy).Contents (Elt F) → (⟨S1x1x4096, .f32⟩ : BufTy).Contents (Elt F)),
    unary main_v19 main_v20 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v18 main_v20 main_v21 (addf : (⟨S4x2048x4096, .f32⟩ : BufTy).Contents (Elt F) → (⟨S4x2048x4096, .f32⟩ : BufTy).Contents (Elt F) → (⟨S4x2048x4096, .f32⟩ : BufTy).Contents (Elt F)) ]

set_option maxRecDepth 1024 in
/-- @main is that straight line: the two outlined functions unfolded at their calls, the sequencing reassociated. -/
theorem main_eq (c : Dev nD) : main (F := F) c = seq ops := by
  simp only [main, fn_trunc.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., nullary_bufs_sub .., binary_bufs_sub .., nullary_bufs_sub .., unary_bufs_sub ..,
    binary_bufs_sub .., nullary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    ternary_bufs_sub .., binary_bufs_sub .., unary_bufs_sub .., unary_bufs_sub .., unary_bufs_sub .., unary_bufs_sub ..,
    binary_bufs_sub .., binary_bufs_sub .., reshape_bufs_sub .., unary_bufs_sub .., unary_bufs_sub .., binary_bufs_sub ..⟩

/-- The flattened tokens. -/
def flat (a0 : FVec F S4x2048x4096 .f32) : FVec F S8192x4096 .f32 :=
  shapeCast S8192x4096 a0 shapeCasts_S4x2048x4096_S8192x4096

/-- Each row's step: its largest magnitude, floored at ε, over 127. -/
def step (X : FVec F S8192x4096 .f32) : FVec F S8192 .f32 :=
  Host.divf (maximumf (Host.reduce FloatOps.maximumf (Host.absf X) (constant S_ .f32 0xFF800000#32) reducesTo_S8192x4096_S8192_d1 h_S_)
      (broadcastInDim S8192 ![] bcast_S_S8192 (constant S_ .f32 0x322BCC77#32)))
    (broadcastInDim S8192 ![] bcast_S_S8192 (constant S_ .f32 0x42FE0000#32))

/-- The rows over their steps, rounded toward zero. -/
def rounded (X : FVec F S8192x4096 .f32) : FVec F S8192x4096 .f32 :=
  select (cmpf .olt (Host.divf X (broadcastInDim S8192x4096 ![0, 1] bcast_S8192x1_S8192x4096_0_1 (broadcastInDim S8192x1 ![0] bcast_S8192_S8192x1_0 (step X))))
      (broadcastInDim S8192x4096 ![] bcast_S_S8192x4096 (constant S_ .f32 0x00000000#32)))
    (Host.ceil (Host.divf X (broadcastInDim S8192x4096 ![0, 1] bcast_S8192x1_S8192x4096_0_1 (broadcastInDim S8192x1 ![0] bcast_S8192_S8192x1_0 (step X)))))
    (Host.floor (Host.divf X (broadcastInDim S8192x4096 ![0, 1] bcast_S8192x1_S8192x4096_0_1 (broadcastInDim S8192x1 ![0] bcast_S8192_S8192x1_0 (step X)))))

/-- The rescaled products, before the tokens are regrouped. -/
def scaled (X : FVec F S8192x4096 .f32) (a1 : FVec F S4096x4096 .f32) (a2 : FVec F S4096 .f32) : FVec F S8192x4096 .f32 :=
  mulf (Host.dotGeneral dot_S8192x4096_S4096x4096_S8192x4096_1_0_0_1_n_n none (rounded X) a1)
    (mulf (broadcastInDim S8192x4096 ![0, 1] bcast_S8192x1_S8192x4096_0_1 (broadcastInDim S8192x1 ![0] bcast_S8192_S8192x1_0 (step X)))
      (broadcastInDim S8192x4096 ![0, 1] bcast_S1x4096_S8192x4096_0_1 (broadcastInDim S1x4096 ![1] bcast_S4096_S1x4096_1 a2)))

/-- The reference's result as one term of its four arguments. -/
def out (a0 : FVec F S4x2048x4096 .f32) (a1 : FVec F S4096x4096 .f32) (a2 a3 : FVec F S4096 .f32) : FVec F S4x2048x4096 .f32 :=
  addf (shapeCast S4x2048x4096 (scaled (flat a0) a1 a2) shapeCasts_S8192x4096_S4x2048x4096)
    (broadcastInDim S4x2048x4096 ![0, 1, 2] bcast_S1x1x4096_S4x2048x4096_0_1_2 (broadcastInDim S1x1x4096 ![2] bcast_S4096_S1x1x4096_2 a3))

set_option maxRecDepth 8192 in
set_option maxHeartbeats 400000 in
/-- The fold of the thirty operations at the result buffer is `out` of the argument buffers' contents. -/
theorem out_eq (V : Valuation τ sig (Elt F)) :
    after ops V (main_v21 : DevRef τ sig)
      = out (V (main_arg0 : DevRef τ sig)) (V (main_arg1 : DevRef τ sig)) (V (main_arg2 : DevRef τ sig)) (V (main_arg3 : DevRef τ sig)) := by
  after_results
  rfl

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results
theorem arg3_eq (V : Valuation τ sig (Elt F)) : after ops V (main_arg3 : DevRef τ sig) = V (main_arg3 : DevRef τ sig) := by
  after_results

/-- On every device, from any memory with zero counters: every weakly fair execution of @main terminates with the result
    at `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21) = out (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v21).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.Straight

end
-- ==== Proof.LibBroadcastInDim.lean ====
/-
  `broadcast_in_dim` read at an index, for the layouts a host program meets when it spreads a per-row or per-column
  quantity over a matrix: a scalar splat to any shape; a vector `[a]` laid out as the column `[a, 1]` or `[b]` as the
  row `[1, b]`; the column and the row spread to `[a, b]`; a vector `[c]` laid out as `[1, 1, c]` and spread to
  `[a, b, c]`. General in the extents and in the element type: each result entry reads the one operand entry that
  shares its coordinates on the axes the operand keeps.
-/
import Idealize.ShloMosaic.Lib.Pipeline.Value
import Idealize.ShloMosaic.Lib.ValueIdx

namespace Idealize.ShloMosaic.ValueIdx

variable {α : Type}

/-- A scalar splat reads the scalar everywhere. -/
theorem broadcastInDim_scalar_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun a => a.elim0

/-- A vector `[a]` as the column `[a, 1]`: entry `(i, u)` is the vector's entry `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column `[a, 1]` spread to `[a, b]`: entry `(p, c)` is the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h x (ix2 p c) = x (ix2 p (0 : Fin 1)) := by
  refine broadcastInDim_apply _ h x _ (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A vector `[b]` as the row `[1, b]`: entry `(u, c)` is the vector's entry `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) := by
  refine broadcastInDim_apply _ h x _ (ix1 c) fun ax => ?_
  match ax with
  | ⟨0, _⟩ =>
    show c.val = if b = 1 then 0 else c.val
    split
    · have := c.isLt; omega
    · rfl

/-- A row `[1, b]` spread to `[a, b]`: entry `(p, c)` is the row's entry `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h x (ix2 p c) = x (ix2 (0 : Fin 1) c) := by
  refine broadcastInDim_apply _ h x _ (ix2 (0 : Fin 1) c) fun ax => ?_
  match ax with
  | ⟨0, _⟩ =>
    show 0 = if (1 : ℕ) = 1 then 0 else p.val
    rw [if_pos rfl]
  | ⟨1, _⟩ =>
    show c.val = if b = 1 then 0 else c.val
    split
    · have := c.isLt; omega
    · rfl

/-- A vector `[c]` as `[1, 1, c]`: entry `(u, v, k)` is the vector's entry `k`. -/
theorem broadcastInDim_c_11c_apply {c : ℕ} (x : (⟨1, ![c]⟩ : Shape).Idx → α)
    (h : (⟨1, ![c]⟩ : Shape).BroadcastsInDim ⟨3, ![1, 1, c]⟩ (![2] : Fin 1 → Fin 3)) (u v : Fin 1) (k : Fin c) :
    broadcastInDim ⟨3, ![1, 1, c]⟩ ![2] h x (ix3 u v k) = x (ix1 k) := by
  refine broadcastInDim_apply _ h x _ (ix1 k) fun ax => ?_
  match ax with
  | ⟨0, _⟩ =>
    show k.val = if c = 1 then 0 else k.val
    split
    · have := k.isLt; omega
    · rfl

/-- `[1, 1, c]` spread to `[a, b, c]`: entry `(p, q, k)` is the operand's entry `(0, 0, k)`. -/
theorem broadcastInDim_11c_abc_apply {a b c : ℕ} (x : (⟨3, ![1, 1, c]⟩ : Shape).Idx → α)
    (h : (⟨3, ![1, 1, c]⟩ : Shape).BroadcastsInDim ⟨3, ![a, b, c]⟩ (![0, 1, 2] : Fin 3 → Fin 3)) (p : Fin a) (q : Fin b) (k : Fin c) :
    broadcastInDim ⟨3, ![a, b, c]⟩ ![0, 1, 2] h x (ix3 p q k) = x (ix3 (0 : Fin 1) (0 : Fin 1) k) := by
  refine broadcastInDim_apply _ h x _ (ix3 (0 : Fin 1) (0 : Fin 1) k) fun ax => ?_
  match ax with
  | ⟨0, _⟩ =>
    show 0 = if (1 : ℕ) = 1 then 0 else p.val
    rw [if_pos rfl]
  | ⟨1, _⟩ =>
    show 0 = if (1 : ℕ) = 1 then 0 else q.val
    rw [if_pos rfl]
  | ⟨2, _⟩ =>
    show k.val = if c = 1 then 0 else k.val
    split
    · have := k.isLt; omega
    · rfl

end Idealize.ShloMosaic.ValueIdx
-- ==== Proof.RefEntry.lean ====
/-
  The reference's result, read entry by entry. Row `r` of the flattened tokens has the step
  `max (max_k |X r k|, ε) / 127`; the rounded matrix at (r, k) is `X r k` over that step rounded toward zero; the
  product at (r, c) sums the rounded row against column `c` of the weights; the rescaling multiplies by the row's step
  times the column's weight scale; regrouping the tokens sends (a, b, c) to row `a · 2048 + b`, and the bias adds its
  entry `c`. So the result at (a, b, c) is the specification's `G2` at (a · 2048 + b, c).
-/
import proofs.«138856_j27487790694928_1_alg».proof.Proof.RefRun
import proofs.«138856_j27487790694928_1_alg».proof.Proof.Spec
import proofs.«138856_j27487790694928_1_alg».proof.Proof.LibBroadcastInDim
import Idealize.ShloMosaic.PureOps.Ideal.Laws

noncomputable section

open scoped BigOperators

namespace Cert.ReferenceIdeal.Entry

open Cert.ReferenceIdeal Cert.ReferenceIdeal.Gen Cert.ReferenceIdeal.Straight
open Idealize.ShloMosaic Idealize.ShloMosaic.ValueIdx Cert.QuantLinear

/-! ## The host's pointwise operations at an index -/

theorem hostDivf_apply {s : Shape} (a b : FVec Ideal s .f32) (i : s.Idx) : Host.divf a b i = Ideal.div (a i) (b i) := rfl
theorem hostCeil_apply {s : Shape} (a : FVec Ideal s .f32) (i : s.Idx) : Host.ceil a i = Ideal.liftRound Int.ceil (a i) := rfl
theorem hostFloor_apply {s : Shape} (a : FVec Ideal s .f32) (i : s.Idx) : Host.floor a i = Ideal.liftRound Int.floor (a i) := rfl

/-! ## A row's step -/

theorem reduces : S8192x4096.Reduces [1] S8192 := by decide

/-- The index the reduction over the second axis inserts: row `r`, position `k`. -/
theorem lift_row (h : S8192x4096.Reduces [1] S8192) (r : Fin 8192) (k : Fin 4096) : h.lift (ix1 r) k = ix2 r k :=
  funext fun a => Fin.ext (by match a with | ⟨0, _⟩ => rfl | ⟨1, _⟩ => rfl)

/-- The maximum over the second axis of the magnitudes, at row `r`, is that row's largest magnitude. -/
theorem rowMax_apply (X : FVec Ideal S8192x4096 .f32) (r : Fin 8192) :
    Host.reduce FloatOps.maximumf (Host.absf X) (constant S_ .f32 0xFF800000#32) reducesTo_S8192x4096_S8192_d1 h_S_ (ix1 r)
      = rowAbsMax (fun k => X (ix2 r k)) := by
  refine (Host.reduce_eq_fold_single FloatOps.maximumf (Host.absf X) (constant S_ .f32 0xFF800000#32)
    reducesTo_S8192x4096_S8192_d1 reduces h_S_ (ix1 r)).trans ?_
  show (Finset.univ : Finset (Fin 4096)).fold max (Ideal.ofBits .f32 0xFF800000#32) (fun k : Fin 4096 => Host.absf X (reduces.lift (ix1 r) k))
    = (Finset.univ : Finset (Fin 4096)).fold max (Ideal.ofBits .f32 0xFF800000#32) (fun k : Fin 4096 => max (X (ix2 r k)) (-(X (ix2 r k))))
  refine congrArg (fun f : Fin 4096 → EReal => (Finset.univ : Finset (Fin 4096)).fold max (Ideal.ofBits .f32 0xFF800000#32) f)
    (funext fun (k : Fin 4096) => ?_)
  show FloatOps.hostAbsf (X (reduces.lift (ix1 r) k)) = max (X (ix2 r k)) (-(X (ix2 r k)))
  rw [lift_row reduces r k]
  rfl

theorem step_apply (X : FVec Ideal S8192x4096 .f32) (r : Fin 8192) : step X (ix1 r) = scale (fun k => X (ix2 r k)) := by
  unfold step scale
  rw [hostDivf_apply, maximumf_apply, rowMax_apply, broadcastInDim_scalar_apply, broadcastInDim_scalar_apply,
    constant_apply, constant_apply]

/-- The steps spread over the matrix: entry (r, c) is row `r`'s step. -/
theorem stepMat_apply (X : FVec Ideal S8192x4096 .f32) (r : Fin 8192) (c : Fin 4096) :
    broadcastInDim S8192x4096 ![0, 1] bcast_S8192x1_S8192x4096_0_1 (broadcastInDim S8192x1 ![0] bcast_S8192_S8192x1_0 (step X)) (ix2 r c)
      = scale (fun k => X (ix2 r k)) := by
  rw [broadcastInDim_a1_ab_apply, broadcastInDim_a_a1_apply, step_apply]

theorem rounded_apply (X : FVec Ideal S8192x4096 .f32) (r : Fin 8192) (k : Fin 4096) :
    rounded X (ix2 r k) = towardZero (Ideal.div (X (ix2 r k)) (scale (fun k => X (ix2 r k)))) := by
  unfold rounded towardZero
  rw [select_apply, cmpf_apply, hostCeil_apply, hostFloor_apply, hostDivf_apply, stepMat_apply, broadcastInDim_scalar_apply,
    constant_apply]
  rfl

/-! ## The product -/

abbrev D := dot_S8192x4096_S4096x4096_S8192x4096_1_0_0_1_n_n

theorem lhs_0 (j : S8192x4096.Idx) (k : D.contr.Idx) : (D.lhsIdx j k 0 : ℕ) = j 0 := by
  simp [DotDims.lhsIdx, D, dot_S8192x4096_S4096x4096_S8192x4096_1_0_0_1_n_n]; rfl
theorem lhs_1 (j : S8192x4096.Idx) (k : D.contr.Idx) : (D.lhsIdx j k 1 : ℕ) = k ⟨0, by decide⟩ := by
  simp [DotDims.lhsIdx, D, dot_S8192x4096_S4096x4096_S8192x4096_1_0_0_1_n_n]; rfl
theorem rhs_0 (j : S8192x4096.Idx) (k : D.contr.Idx) : (D.rhsIdx j k 0 : ℕ) = k ⟨0, by decide⟩ := by
  simp [DotDims.rhsIdx, D, dot_S8192x4096_S4096x4096_S8192x4096_1_0_0_1_n_n]; rfl
theorem rhs_1 (j : S8192x4096.Idx) (k : D.contr.Idx) : (D.rhsIdx j k 1 : ℕ) = j 1 := by
  simp [DotDims.rhsIdx, D, dot_S8192x4096_S4096x4096_S8192x4096_1_0_0_1_n_n]; rfl

/-- The matrix product at (r, c): row `r` of the left operand against column `c` of the right. -/
theorem product_apply (L : FVec Ideal S8192x4096 .f32) (R : FVec Ideal S4096x4096 .f32) (r : Fin 8192) (c : Fin 4096) :
    Host.dotGeneral D none L R (ix2 r c) = ∑ k : Fin 4096, L (ix2 r k) * R (ix2 k c) := by
  refine (Ideal.dotGeneral_apply D none _ L R (ix2 r c)).trans ?_
  rw [← Equiv.sum_comp (contrEquiv1 D 4096 (by decide) (by decide)).symm]
  refine Finset.sum_congr rfl fun k _ => ?_
  have hl : D.lhsIdx (ix2 r c) ((contrEquiv1 D 4096 (by decide) (by decide)).symm k) = ix2 r k :=
    funext fun a => Fin.ext (by
      match a with
      | ⟨0, _⟩ => exact lhs_0 _ _
      | ⟨1, _⟩ => exact (lhs_1 _ _).trans (contrEquiv1_symm_val D 4096 _ _ k))
  have hr : D.rhsIdx (ix2 r c) ((contrEquiv1 D 4096 (by decide) (by decide)).symm k) = ix2 k c :=
    funext fun a => Fin.ext (by
      match a with
      | ⟨0, _⟩ => exact (rhs_0 _ _).trans (contrEquiv1_symm_val D 4096 _ _ k)
      | ⟨1, _⟩ => exact rhs_1 _ _)
  rw [hl, hr]

/-! ## The rescaled product and the result -/

theorem scaled_apply (X : FVec Ideal S8192x4096 .f32) (a1 : FVec Ideal S4096x4096 .f32) (a2 : FVec Ideal S4096 .f32)
    (r : Fin 8192) (c : Fin 4096) :
    scaled X a1 a2 (ix2 r c)
      = (∑ k : Fin 4096, towardZero (Ideal.div (X (ix2 r k)) (scale (fun k => X (ix2 r k)))) * a1 (ix2 k c))
          * (scale (fun k => X (ix2 r k)) * a2 (ix1 c)) := by
  unfold scaled
  rw [mulf_apply, mulf_apply, product_apply, stepMat_apply, broadcastInDim_1b_ab_apply, broadcastInDim_b_1b_apply]
  refine congrArg (fun s => s * (scale (fun k => X (ix2 r k)) * a2 (ix1 c))) (Finset.sum_congr rfl fun k _ => ?_)
  rw [rounded_apply]

/-- The reference's result at (a, b, c) is the specification at the flattened row `a · 2048 + b`, column `c`. -/
theorem out_apply (a0 : FVec Ideal S4x2048x4096 .f32) (a1 : FVec Ideal S4096x4096 .f32) (a2 a3 : FVec Ideal S4096 .f32)
    (a : Fin 4) (b : Fin 2048) (c : Fin 4096) :
    out a0 a1 a2 a3 (ix3 a b c) = G2 (flat a0) a1 a2 a3 (ix2 (⟨a.val * 2048 + b.val, by omega⟩ : Fin 8192) c) := by
  unfold out
  rw [addf_apply, unflatten_apply, scaled_apply, broadcastInDim_11c_abc_apply, broadcastInDim_c_11c_apply, G2_apply]
  rfl

end Cert.ReferenceIdeal.Entry

end
-- ==== Proof.Bridge.lean ====
/-
  The two programs compute one function. The kernel program's result at (a, b, c) is its flattened result at row
  `a · 2048 + b`, column `c`, which is the specification's entry of that token row, weight column `c`, and the
  `c`-th weight scale and bias (the narrowing of the weights and the two row layouts read through); the reference's
  result at (a, b, c) is the same entry. No law of arithmetic is needed beyond this re-indexing, so the inputs'
  finiteness is never used.
-/
import proofs.«138856_j27487790694928_1_alg».proof.Proof.KernelValue
import proofs.«138856_j27487790694928_1_alg».proof.Proof.RefEntry
import Idealize.ShloMosaic.Lib.ValueLayout

noncomputable section

namespace Cert.Proof.Bridge

open Idealize.ShloMosaic Idealize.ShloMosaic.ValueIdx Cert.QuantLinear

/-- The kernel program's result at (a, b, c) is the specification at the flattened row `a · 2048 + b`, column `c`. -/
theorem kernel_out_apply (a0 : FVec Ideal Cert.KernelIdeal.S4x2048x4096 .f32) (a1 : FVec Ideal Cert.KernelIdeal.S4096x4096 .f32)
    (a2 a3 : FVec Ideal Cert.KernelIdeal.S4096 .f32) (a : Fin 4) (b : Fin 2048) (c : Fin 4096) :
    Cert.KernelIdeal.Whole.out a0 a1 a2 a3 (ix3 a b c)
      = G2 (shapeCast Cert.KernelIdeal.S8192x4096 a0 Cert.KernelIdeal.Gen.shapeCasts_S4x2048x4096_S8192x4096) a1 a2 a3
          (ix2 (⟨a.val * 2048 + b.val, by omega⟩ : Fin 8192) c) := by
  unfold Cert.KernelIdeal.Whole.out
  rw [unflatten_apply, G2_apply]
  show entry _ _ (shapeCast Cert.KernelIdeal.S1x4096 a2 _ (ix2 (0 : Fin 1) c)) (shapeCast Cert.KernelIdeal.S1x4096 a3 _ (ix2 (0 : Fin 1) c)) = _
  rw [shapeCast_a_1a_apply, shapeCast_a_1a_apply]
  rfl

/-- The kernel program's result and the reference's are one function of the four arguments. -/
theorem out_eq (a0 : FVec Ideal Cert.KernelIdeal.S4x2048x4096 .f32) (a1 : FVec Ideal Cert.KernelIdeal.S4096x4096 .f32)
    (a2 a3 : FVec Ideal Cert.KernelIdeal.S4096 .f32) :
    Cert.KernelIdeal.Whole.out a0 a1 a2 a3 = Cert.ReferenceIdeal.Straight.out a0 a1 a2 a3 := by
  funext i
  obtain ⟨a, b, c, rfl⟩ : ∃ (a : Fin 4) (b : Fin 2048) (c : Fin 4096), i = ix3 a b c := ⟨i 0, i 1, i 2, eq_ix3 i⟩
  rw [kernel_out_apply, Cert.ReferenceIdeal.Entry.out_apply]
  rfl

end Cert.Proof.Bridge

end
-- ==== Proof.lean ====
/-
  The certificate's five claims for the quantized linear layer
  `out = (∑ k, ⌊x k / s⌉₀ · W k c) · (s · w_max c) + bias c`, with `s = max (max_k |x k|, ε) / 127` per token row.

  The two kernel programs run, terminate and leave their arguments unchanged: the generated frames. The reference runs
  as a straight line of thirty host operations and leaves its arguments unchanged. The ideal pass rewrote nothing, so
  the idealized kernel is the kernel's own text read over the extended reals. And at the extended reals the idealized
  kernel and the idealized reference, run from memories that agree on the four arguments, end with equal results: both
  results are the same function of the arguments, entry by entry (Proof/Bridge.lean) — the kernel's narrowing of the
  rounded rows and of the weights is the identity there, its per-block row maxima are the rows' maxima, and its
  512 × 256 blocks tile the result.
-/
import proofs.«138856_j27487790694928_1_alg».proof.Defs
import proofs.«138856_j27487790694928_1_alg».proof.Proof.Gen.Kernel
import proofs.«138856_j27487790694928_1_alg».proof.Proof.Gen.Kernel.Skeleton
import proofs.«138856_j27487790694928_1_alg».proof.Proof.Gen.Kernel.Launch
import proofs.«138856_j27487790694928_1_alg».proof.Proof.Gen.Kernel.Points
import proofs.«138856_j27487790694928_1_alg».proof.Proof.Gen.Kernel.Frame
import proofs.«138856_j27487790694928_1_alg».proof.Proof.Gen.KernelIdeal
import proofs.«138856_j27487790694928_1_alg».proof.Proof.Gen.KernelIdeal.Skeleton
import proofs.«138856_j27487790694928_1_alg».proof.Proof.Gen.KernelIdeal.Launch
import proofs.«138856_j27487790694928_1_alg».proof.Proof.Gen.KernelIdeal.Points
import proofs.«138856_j27487790694928_1_alg».proof.Proof.Gen.KernelIdeal.Frame
import proofs.«138856_j27487790694928_1_alg».proof.Proof.Gen.ReferenceIdeal
import proofs.«138856_j27487790694928_1_alg».proof.Proof.Gen.Pre_finite_inputs
import proofs.«138856_j27487790694928_1_alg».proof.Proof.KernelValue
import proofs.«138856_j27487790694928_1_alg».proof.Proof.RefRun
import proofs.«138856_j27487790694928_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Straight.run (F := Ideal) m ρ)

/-- No operation was rewritten. -/
theorem preserves : Cert.preserves_Kernel_KernelIdeal := trivial

/-- Both runs end at the kernel's function of the first memory's arguments: the kernel's by its run, the reference's
    by its run, the two functions' equality and the memories' agreement. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Straight.run (F := Ideal) m' ρ')
  rw [(hagree c).1, (hagree c).2.1, (hagree c).2.2.1, (hagree c).2.2.2]
  exact (Cert.Proof.Bridge.out_eq _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
